-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x2048, .f32⟩
  | .local _ .vmem, ⟨5, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  reduces_S1024x128_S1024 : S1024x128.Reduces [1] S1024
  shapeCasts_S1024_S1024x1 : S1024.ShapeCasts S1024x1
  reduces_S2048x128_S2048 : S2048x128.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.SqDist.lean ====
/-
  The function both programs compute, stated once over the whole arrays.

  For two arrays `a`, `b` of 8192 rows and 128 columns over the extended reals, entry (r, s) of the result is

      (|a_r|² + |b_s|²) − 2 · ⟨a_r, b_s⟩,

  where |a_r|² = Σ_k a[r,k]·a[r,k] is the squared length of row r, ⟨a_r, b_s⟩ = Σ_k a[r,k]·b[s,k] the inner
  product of row r of `a` with row s of `b`, and `2` the value of the f32 word 0x40000000 (kept as that word: the
  same word stands on both sides, so it is never evaluated). This is the expanded form of the squared Euclidean
  distance between the two rows. Nothing here is rearranged: the bracketing and the order of the operands are
  the ones both programs use, so no law of the extended reals beyond `0 + x = x` is needed to meet either side,
  and the entries may be infinite.
-/
import Idealize.ShloMosaic.PureOps.Ideal
import Idealize.ShloMosaic.Lib.ValueIdx

noncomputable section

open scoped BigOperators
open Idealize.ShloMosaic Idealize.ShloMosaic.ValueIdx

namespace Cert.SqDist

/-- The squared length of row `r`: the sum over the 128 columns of the entry times itself. -/
def rowSq (a : (⟨2, ![8192, 128]⟩ : Shape).Idx → EReal) (r : Fin 8192) : EReal :=
  ∑ k : Fin 128, a (ix2 r k) * a (ix2 r k)

/-- The inner product of row `r` of `a` with row `s` of `b`. -/
def rowDot (a b : (⟨2, ![8192, 128]⟩ : Shape).Idx → EReal) (r s : Fin 8192) : EReal :=
  ∑ k : Fin 128, a (ix2 r k) * b (ix2 s k)

/-- Entry (r, s): the two squared lengths added, less twice the inner product. -/
def entry (a b : (⟨2, ![8192, 128]⟩ : Shape).Idx → EReal) (r s : Fin 8192) : EReal :=
  (rowSq a r + rowSq b s) - Ideal.ofBits .f32 0x40000000#32 * rowDot a b r s

/-- The whole [8192, 8192] result, index by index. -/
def sqDist (a b : (⟨2, ![8192, 128]⟩ : Shape).Idx → EReal) : (⟨2, ![8192, 8192]⟩ : Shape).Idx → EReal :=
  fun i => entry a b ⟨(i 0).val, (i 0).isLt⟩ ⟨(i 1).val, (i 1).isLt⟩

/-- At the index with coordinates (r, s) the result is entry (r, s). -/
theorem sqDist_ix2 (a b : (⟨2, ![8192, 128]⟩ : Shape).Idx → EReal) (r s : Fin 8192) :
    sqDist a b (ix2 r s) = entry a b r s := rfl

end Cert.SqDist

end
-- ==== Proof.RefIsSqDist.lean ====
/-
  The reference computes the specification.

  The reference forms the three quantities on whole arrays: the row sums of `a ∘ a` and of `b ∘ b` (each a sum
  started from the word 0x00000000, which denotes 0), spread along a column and along a row of the [8192, 8192]
  result, and the matrix of inner products of the rows of `a` with the rows of `b` (a contraction over the
  128 columns of both). Read at the index (r, s), the spread row sum of `a ∘ a` is the one of row r, that of
  `b ∘ b` the one of row s, and the contraction is Σ_k a[r,k]·b[s,k]. With `0 + x = x` for the two started sums
  this is entry (r, s) of the specification, bracket for bracket.
-/
import proofs.«163291_j42666205118575_2_alg».proof.Proof.Gen.ReferenceIdeal.Read
import proofs.«163291_j42666205118575_2_alg».proof.Proof.SqDist

noncomputable section

open scoped BigOperators
open Idealize.ShloMosaic Idealize.ShloMosaic.ValueIdx

namespace Cert.ReferenceIdeal.Spec

open Cert.ReferenceIdeal Cert.ReferenceIdeal.Read

/-- Going back from (r, s) through the column spread and the row sum, column k: the entry (r, k). -/
theorem idx_rowsum_a (r s : Fin 8192) (k : Fin 128) :
    idx_main_v1 (idx_main_v2 (idx_main_v7 (ix2 r s))) k = ix2 r k :=
  funext fun a => Fin.ext (by match a with | ⟨0, _⟩ => rfl | ⟨1, _⟩ => rfl)

/-- Going back from (r, s) through the row spread and the row sum, column k: the entry (s, k). -/
theorem idx_rowsum_b (r s : Fin 8192) (k : Fin 128) :
    idx_main_v4 (idx_main_v6 (idx_main_v8 (ix2 r s))) k = ix2 s k :=
  funext fun a => Fin.ext (by match a with | ⟨0, _⟩ => rfl | ⟨1, _⟩ => rfl)

/-- The contraction's left factor at (r, s), column k, is the entry (r, k); -/
theorem idx_dot_l (r s : Fin 8192) (k : Fin 128) : lidx_main_v5 (ix2 r s) k = ix2 r k :=
  funext fun a => Fin.ext (by match a with | ⟨0, _⟩ => rfl | ⟨1, _⟩ => rfl)

/-- its right factor the entry (s, k). -/
theorem idx_dot_r (r s : Fin 8192) (k : Fin 128) : ridx_main_v5 (ix2 r s) k = ix2 s k :=
  funext fun a => Fin.ext (by match a with | ⟨0, _⟩ => rfl | ⟨1, _⟩ => rfl)

/-- The reference's last stage, as a function of the two argument arrays, is the specification. -/
theorem val_eq (x0 x1 : (⟨S8192x128, .f32⟩ : BufTy).Contents (Elt Ideal)) :
    val_main_v12 (F := Ideal) x0 x1 = Cert.SqDist.sqDist x0 x1 := by
  funext i
  obtain ⟨r, s, rfl⟩ : ∃ (r : Fin 8192) (s : Fin 8192), i = ix2 r s := ⟨i 0, i 1, eq_ix2 i⟩
  rw [Cert.SqDist.sqDist_ix2, val_main_v12_apply, val_main_v9_apply, val_main_v11_apply, val_main_v7_apply,
    val_main_v2_apply, val_main_v1_apply, val_main_v8_apply, val_main_v6_apply, val_main_v4_apply,
    val_main_v10_apply, val_main_v5_apply]
  simp only [val_main_v0_apply, val_main_v3_apply, val_main_cst_apply, val_main_cst_0_apply, val_main_cst_1_apply,
    idx_rowsum_a, idx_rowsum_b, idx_dot_l, idx_dot_r, Ideal.subf_def, Ideal.addf_def, Ideal.mulf_def,
    Ideal.ofBits_def, Ideal.ofBits_zero_f32, zero_add]
  rfl

end Cert.ReferenceIdeal.Spec

end
-- ==== Proof.BlockEntry.lean ====
/-
  What the kernel's body stores, read at one entry of the output block.

  At a grid point the body holds a block `x0` of 1024 rows of the first array and a block `x1` of 2048 rows of the
  second (128 columns each) and stores a [1024, 2048] block. Its entry (p, q) is

      (Σ_k x0[p,k]·x0[p,k]  +  Σ_k x1[q,k]·x1[q,k])  −  2 · Σ_k x0[p,k]·x1[q,k].

  The three sums come from three different operations: the row sums of `x0 ∘ x0` kept as a column and spread over
  the 2048 columns of the block, the row sums of `x1 ∘ x1` laid as a row and spread over the 1024 rows, and the
  matrix product of `x0` with the transpose of `x1` accumulated into zero. Each is read at (p, q) by one small
  lemma; the elementwise operations around them read through.
-/
import proofs.«163291_j42666205118575_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Block

open Cert.KernelIdeal Cert.KernelIdeal.Gen

/-! ## A vector kept as a column, a column spread over the columns of a matrix -/

/-- An `[a]` vector viewed as an `[a, 1]` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 1024 row values, kept as a column and spread over the block's 2048 columns, reads at (p, q) its value
    at row p. -/
theorem column_spread_apply {α : Type} (v : S1024.Idx → α) (p : Fin 1024) (q : Fin 2048) :
    broadcastTo S1024x2048 (shapeCast S1024x1 v shapeCasts_S1024_S1024x1) broadcasts_S1024x1_S1024x2048 (ix2 p q)
      = v (ix1 p) :=
  (broadcastTo_a1_ab_apply _ broadcasts_S1024x1_S1024x2048 p q).trans
    (shapeCast_a_a1_apply v shapeCasts_S1024_S1024x1 p 0)

/-- A vector of 2048 row values, laid as a row and spread over the block's 1024 rows, reads at (p, q) its value at q. -/
theorem row_spread_apply {α : Type} (v : S2048.Idx → α) (p : Fin 1024) (q : Fin 2048) :
    broadcastTo S1024x2048 (shapeCast S1x2048 v shapeCasts_S2048_S1x2048) broadcasts_S1x2048_S1024x2048 (ix2 p q)
      = v (ix1 q) :=
  (broadcastTo_1b_ab_apply _ broadcasts_S1x2048_S1024x2048 p q).trans
    (shapeCast_a_1a_apply v shapeCasts_S2048_S1x2048 0 q)

/-! ## The row sums -/

/-- The sum along the 128 columns of a [1024, 128] block, at row p. -/
theorem rowsum1024_apply (v : FVec Ideal S1024x128 .f32) (p : Fin 1024) :
    multiReduction .add [1] S1024 v 0x00000000#32 reduces_S1024x128_S1024 (.inl rfl) rfl (ix1 p)
      = ∑ k : Fin 128, v (ix2 p k) :=
  (Ideal.multiReduction_add_single v 0x00000000#32 reduces_S1024x128_S1024 (.inl rfl) rfl (ix1 p)).trans
    (Finset.sum_congr rfl fun k _ => congrArg v
      (funext fun a => Fin.ext (by match a with | ⟨0, _⟩ => rfl | ⟨1, _⟩ => rfl)))

/-- The sum along the 128 columns of a [2048, 128] block, at row q. -/
theorem rowsum2048_apply (v : FVec Ideal S2048x128 .f32) (q : Fin 2048) :
    multiReduction .add [1] S2048 v 0x00000000#32 reduces_S2048x128_S2048 (.inl rfl) rfl (ix1 q)
      = ∑ k : Fin 128, v (ix2 q k) :=
  (Ideal.multiReduction_add_single v 0x00000000#32 reduces_S2048x128_S2048 (.inl rfl) rfl (ix1 q)).trans
    (Finset.sum_congr rfl fun k _ => congrArg v
      (funext fun a => Fin.ext (by match a with | ⟨0, _⟩ => rfl | ⟨1, _⟩ => rfl)))

/-! ## The product of the two blocks: both contracted along their columns -/

theorem lhs_0 (i : S1024x2048.Idx) (c : dot_S1024x128_S2048x128_S1024x2048_1_1_0_0_n_n.contr.Idx) : (dot_S1024x128_S2048x128_S1024x2048_1_1_0_0_n_n.lhsIdx i c 0).val = (i 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
theorem lhs_1 (i : S1024x2048.Idx) (c : dot_S1024x128_S2048x128_S1024x2048_1_1_0_0_n_n.contr.Idx) : (dot_S1024x128_S2048x128_S1024x2048_1_1_0_0_n_n.lhsIdx i c 1).val = (c ⟨0, by decide⟩).val :=
  dot_S1024x128_S2048x128_S1024x2048_1_1_0_0_n_n.lhsIdx_val_of_single rfl i c
theorem rhs_0 (i : S1024x2048.Idx) (c : dot_S1024x128_S2048x128_S1024x2048_1_1_0_0_n_n.contr.Idx) : (dot_S1024x128_S2048x128_S1024x2048_1_1_0_0_n_n.rhsIdx i c 0).val = (i 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
theorem rhs_1 (i : S1024x2048.Idx) (c : dot_S1024x128_S2048x128_S1024x2048_1_1_0_0_n_n.contr.Idx) : (dot_S1024x128_S2048x128_S1024x2048_1_1_0_0_n_n.rhsIdx i c 1).val = (c ⟨0, by decide⟩).val :=
  dot_S1024x128_S2048x128_S1024x2048_1_1_0_0_n_n.rhsIdx_val_of_single rfl i c

/-- The matrix product accumulated into zero, at (p, q): row p of the first block against row q of the second. -/
theorem product_apply (x0 : FVec Ideal S1024x128 .f32) (x1 : FVec Ideal S2048x128 .f32) (p : Fin 1024) (q : Fin 2048) :
    matmul dot_S1024x128_S2048x128_S1024x2048_1_1_0_0_n_n (some .fp32) x0 x1 (constant (F := Ideal) S1024x2048 .f32 0x00000000#32) (ix2 p q)
      = ∑ k : Fin 128, x0 (ix2 p k) * x1 (ix2 q k) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 p q) ((ValueIdx.contrEquiv1 dot_S1024x128_S2048x128_S1024x2048_1_1_0_0_n_n 128 rfl rfl).symm k) = ix2 p k :=
    funext fun a => Fin.ext (by
      match a with
      | ⟨0, _⟩ => exact lhs_0 _ _
      | ⟨1, _⟩ => exact (lhs_1 _ _).trans hk)
  have er : dot_S1024x128_S2048x128_S1024x2048_1_1_0_0_n_n.rhsIdx (ix2 p q) ((ValueIdx.contrEquiv1 dot_S1024x128_S2048x128_S1024x2048_1_1_0_0_n_n 128 rfl rfl).symm k) = ix2 q k :=
    funext fun a => Fin.ext (by
      match a with
      | ⟨0, _⟩ => exact rhs_0 _ _
      | ⟨1, _⟩ => exact (rhs_1 _ _).trans hk)
  rw [el, er]

/-! ## The stored value -/

/-- Entry (p, q) of the block the body stores. -/
theorem stored_apply (x0 : FVec Ideal S1024x128 .f32) (x1 : FVec Ideal S2048x128 .f32) (p : Fin 1024) (q : Fin 2048) :
    k0_pay1 (F := Ideal) x0 x1 (ix2 p q)
      = ((∑ k : Fin 128, x0 (ix2 p k) * x0 (ix2 p k)) + ∑ k : Fin 128, x1 (ix2 q k) * x1 (ix2 q k))
        - Ideal.ofBits .f32 0x40000000#32 * ∑ k : Fin 128, x0 (ix2 p k) * x1 (ix2 q k) := by
  have ea := (column_spread_apply _ p q).trans (rowsum1024_apply (mulf x0 x0) p)
  have eb := (row_spread_apply _ p q).trans (rowsum2048_apply (mulf x1 x1) q)
  have ec := product_apply x0 x1 p q
  unfold k0_pay1
  exact congrArg₂ (· - ·) (congrArg₂ (· + ·) ea eb) (congrArg (Ideal.ofBits .f32 0x40000000#32 * ·) ec)

end Cert.KernelIdeal.Block

end
-- ==== Proof.BlockIsSqDist.lean ====
/-
  A stored block is a block of the specification.

  Suppose the body's first block `x0` holds rows I·1024 … I·1024 + 1023 of an array `A` and its second block `x1`
  rows J·2048 … J·2048 + 2047 of an array `B`. Then entry (p, q) of the block the body stores is entry
  (I·1024 + p, J·2048 + q) of the specification of `A` and `B`: each of the three sums is over the 128 columns of
  the same two rows, read once through the blocks and once through the arrays.
-/
import proofs.«163291_j42666205118575_2_alg».proof.Proof.SqDist
import proofs.«163291_j42666205118575_2_alg».proof.Proof.BlockEntry

noncomputable section

open scoped BigOperators
open Idealize.ShloMosaic Idealize.ShloMosaic.ValueIdx

namespace Cert.KernelIdeal.Block

open Cert.KernelIdeal Cert.KernelIdeal.Gen

/-- The stored block at `j` is the specification at `i`, when `i` is `j` moved by the blocks' row offsets and the blocks
    are those rows of the arrays (`h0`, `h1`: a block's entry `y` is the array's entry `z` whenever `z` is `y` moved
    down by the offset). -/
theorem stored_eq_sqDist (x0 : FVec Ideal S1024x128 .f32) (x1 : FVec Ideal S2048x128 .f32)
    (A B : (⟨2, ![8192, 128]⟩ : Shape).Idx → EReal) (I J : ℕ)
    (h0 : ∀ (y : S1024x128.Idx) (z : S8192x128.Idx), (z 0).val = I * 1024 + (y 0).val → (z 1).val = (y 1).val → x0 y = A z)
    (h1 : ∀ (y : S2048x128.Idx) (z : S8192x128.Idx), (z 0).val = J * 2048 + (y 0).val → (z 1).val = (y 1).val → x1 y = B z)
    (j : S1024x2048.Idx) (i : S8192x8192.Idx)
    (hi0 : (i 0).val = I * 1024 + (j 0).val) (hi1 : (i 1).val = J * 2048 + (j 1).val) :
    k0_pay1 (F := Ideal) x0 x1 j = Cert.SqDist.sqDist A B i := by
  obtain ⟨p, q, rfl⟩ : ∃ (p : Fin 1024) (q : Fin 2048), j = ix2 p q := ⟨j 0, j 1, eq_ix2 j⟩
  obtain ⟨r, s, rfl⟩ : ∃ (r : Fin 8192) (s : Fin 8192), i = ix2 r s := ⟨i 0, i 1, eq_ix2 i⟩
  have hr : r.val = I * 1024 + p.val := hi0
  have hs : s.val = J * 2048 + q.val := hi1
  have ea : ∀ k : Fin 128, x0 (ix2 p k) = A (ix2 r k) := fun k => h0 _ _ hr rfl
  have eb : ∀ k : Fin 128, x1 (ix2 q k) = B (ix2 s k) := fun k => h1 _ _ hs rfl
  rw [stored_apply, Cert.SqDist.sqDist_ix2]
  unfold Cert.SqDist.entry Cert.SqDist.rowSq Cert.SqDist.rowDot
  simp only [ea, eb]

end Cert.KernelIdeal.Block

end
-- ==== Proof.WholeArray.lean ====
/-
  From the blocks to the whole result array.

  The grid has 8 × 4 points. At point (g, h) the first window holds rows g·1024 … of the first array, the second
  window rows h·2048 … of the second, and the output window is block (g, h) of the [8192, 8192] result: rows
  g·1024 …, columns h·2048 …. So what each point writes back is that block of the specification of the two
  argument arrays, the 32 blocks cover every index of the result (the point covering (r, s) is
  (r / 1024, s / 2048)), and the array ends holding the specification.
-/
import proofs.«163291_j42666205118575_2_alg».proof.Proof.Gen.KernelIdeal.Value
import proofs.«163291_j42666205118575_2_alg».proof.Proof.BlockIsSqDist

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

theorem origin : (![0, 0] : Fin 2 → Nat) = fun _ => 0 := funext fun a => by fin_cases a <;> rfl

/-- The windows' block indices over the 32 grid points: the first window moves with the output's rows and the
    second with the output's columns, both stay at column block 0, and the output's block indices range over 8 × 4. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) < 8 ∧ win0_2.index t (1 : Fin 2) < 4 :=
  (by decide +kernel : ∀ t : Fin grid0.N, _)

/-- Every one of the 8 × 4 output blocks is some point's. -/
theorem every_block : ∀ (g : Fin 8) (h : Fin 4), ∃ t : Fin cfg0.N, win0_2.index t = ![g.val, h.val] :=
  (by decide +kernel : ∀ (g : Fin 8) (h : Fin 4), ∃ t : Fin grid0.N, win0_2.index t = ![g.val, h.val])

/-- What point `t` writes back is block `t` of the specification of the argument arrays. -/
theorem flushed_eq (c : Dev nD) (t : Fin cfg0.N) :
    (dats m 0 c).flushed 2 t
      = ((cfg0.win 2).blk t).view.read (Elt Ideal) (Cert.SqDist.sqDist (V m c main_arg0) (V m c main_arg1)) := by
  rw [Cert.KernelIdeal.Value.flushed2]
  unfold out0_2
  rw [View.canon_unit_zero origin]
  simp only [View.ld_unit_zero (S := S1024x128) origin, View.ld_unit_zero (S := S2048x128) origin]
  obtain ⟨e0, e1, e2, e3, b0, b1⟩ := block_indices t
  funext j
  show k0_pay1 (iblk m c 0 t) (iblk m c 1 t) j
    = Cert.SqDist.sqDist (V m c main_arg0) (V m c main_arg1) (((cfg0.win 2).blk t).view.emb j)
  refine Block.stored_eq_sqDist (iblk m c 0 t) (iblk m c 1 t) (V m c main_arg0) (V m c main_arg1)
    (win0_2.index t (0 : Fin 2)) (win0_2.index t (1 : Fin 2)) ?_ ?_ j _ ?_ ?_
  · intro y z hz0 hz1
    show V m c main_arg0 (((cfg0.win 0).blk t).view.emb y) = V m c main_arg0 z
    refine congrArg _ (funext fun a => Fin.ext ?_)
    match a with
    | ⟨0, _⟩ => show win0_0.index t (0 : Fin 2) * 1024 + 1 * (y 0).val = (z 0).val; omega
    | ⟨1, _⟩ => show win0_0.index t (1 : Fin 2) * 128 + 1 * (y 1).val = (z 1).val; omega
  · intro y z hz0 hz1
    show V m c main_arg1 (((cfg0.win 1).blk t).view.emb y) = V m c main_arg1 z
    refine congrArg _ (funext fun a => Fin.ext ?_)
    match a with
    | ⟨0, _⟩ => show win0_1.index t (0 : Fin 2) * 2048 + 1 * (y 0).val = (z 0).val; omega
    | ⟨1, _⟩ => show win0_1.index t (1 : Fin 2) * 128 + 1 * (y 1).val = (z 1).val; omega
  · show win0_2.index t (0 : Fin 2) * 1024 + 1 * (j 0).val = win0_2.index t (0 : Fin 2) * 1024 + (j 0).val; omega
  · show win0_2.index t (1 : Fin 2) * 2048 + 1 * (j 1).val = win0_2.index t (1 : Fin 2) * 2048 + (j 1).val; omega

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- Every index (r, s) of the result is in the block of the point (r / 1024, s / 2048). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- The result array after the run is the specification of the two argument arrays as launched. -/
theorem final (c : Dev nD) :
    (dats m 0 c).arrAt 2 cfg0.N
      = Cert.SqDist.sqDist (m ((c : Thread nD τ).loc main_arg0)) (m ((c : Thread nD τ).loc main_arg1)) :=
  (dats m 0 c).arrAt_eq_of_cover 2 _ (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v0)
        = Cert.SqDist.sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.lean ====
/-
  Pairwise squared distances: a tiled kernel against the whole-array formula.

  Both programs take two arrays `a`, `b` of 8192 rows and 128 columns and produce the [8192, 8192] array whose
  entry (r, s) is

      (|a_r|² + |b_s|²) − 2 · ⟨a_r, b_s⟩ ,      |a_r|² = Σ_k a[r,k]², ⟨a_r, b_s⟩ = Σ_k a[r,k]·b[s,k],

  the expanded squared Euclidean distance between row r of `a` and row s of `b` (Proof/SqDist.lean states it once).

  The reference forms the two vectors of squared lengths and the matrix of inner products on the whole arrays and
  combines them (Proof/RefIsSqDist.lean reads its last stage at an index). The kernel works block by block over
  an 8 × 4 grid: at point (g, h) it holds rows g·1024 … of `a` and rows h·2048 … of `b`, computes the squared
  lengths of those rows and the product of the two blocks, and stores block (g, h) of the result
  (Proof/BlockEntry.lean reads the stored block at an entry; Proof/BlockIsSqDist.lean identifies it with the
  specification's entry at the moved index; Proof/WholeArray.lean shows the 32 blocks cover the result, so the
  array ends holding the specification).

  Over the extended reals, where every operation is exact and a sum does not depend on its order, the two
  sides agree bracket for bracket: the same three sums over the 128 columns, the same word for `2`, the same
  order of the additions and of the subtraction. The one law used is `0 + x = x` (each sum is started from zero).
  No entry needs to be finite, so the precondition is never opened. The idealized kernel is the kernel's own text
  read over the extended reals, with no operation replaced, so the idealization claim is trivial; the three frames
  are the generated ones (the reference's being its generated run with the result dropped).
-/
import proofs.«163291_j42666205118575_2_alg».proof.Defs
import proofs.«163291_j42666205118575_2_alg».proof.Proof.Gen.Kernel
import proofs.«163291_j42666205118575_2_alg».proof.Proof.Gen.Kernel.Frame
import proofs.«163291_j42666205118575_2_alg».proof.Proof.Gen.KernelIdeal
import proofs.«163291_j42666205118575_2_alg».proof.Proof.Gen.KernelIdeal.Frame
import proofs.«163291_j42666205118575_2_alg».proof.Proof.Gen.KernelIdeal.Value
import proofs.«163291_j42666205118575_2_alg».proof.Proof.Gen.ReferenceIdeal
import proofs.«163291_j42666205118575_2_alg».proof.Proof.Gen.ReferenceIdeal.Run
import proofs.«163291_j42666205118575_2_alg».proof.Proof.Gen.ReferenceIdeal.Read
import proofs.«163291_j42666205118575_2_alg».proof.Proof.Gen.Pre_finite_inputs
import proofs.«163291_j42666205118575_2_alg».proof.Proof.RefIsSqDist
import proofs.«163291_j42666205118575_2_alg».proof.Proof.WholeArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was replaced in its idealization. -/
theorem preserves : Cert.preserves_Kernel_KernelIdeal := trivial

/-- The kernel's result array ends at the specification of its argument arrays, the reference's at its last stage,
    which is the specification of its own; the arguments agree. -/
theorem algebraic : Cert.algebraic_KernelIdeal_ReferenceIdeal := by
  intro m ρ m' ρ' _ hagree
  refine ⟨fun c => Cert.SqDist.sqDist (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Spec.val_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
